-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S100000x128 : Shape := ⟨2, ![100000, 128]⟩
abbrev S128x128 : Shape := ⟨2, ![128, 128]⟩
abbrev S16000x128 : Shape := ⟨2, ![16000, 128]⟩

abbrev nBuf : Space → Nat
  | .hbm => 3
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S100000x128, .f32⟩
  | .local _ .vmem, ⟨0, _⟩ => ⟨S16000x128, .f32⟩
  | .local _ .vmem, ⟨1, _⟩ => ⟨S16000x128, .f32⟩
  | .local _ .vmem, ⟨2, _⟩ => ⟨S128x128, .f32⟩
  | .local _ .vmem, ⟨3, _⟩ => ⟨S16000x128, .f32⟩
  | .local _ .vmem, ⟨4, _⟩ => ⟨S16000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16000x128_S16000x128_0_0 : ∀ a, (![0, 0] : Fin 2 → Nat) a + S16000x128.size a ≤ S16000x128.size a
  h_S16000x128 : 0 < S16000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  dot_S16000x128_S128x128_S16000x128_1_1_0_0_n_n_wf : DotDims.WF S16000x128 S128x128 S16000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16000x128.size a < S100000x128.size a
  hwx0_0 : ∀ i : grid0.Coords, EltTy.bits .f32 = 32 ∨ (Rect.unit (s := S100000x128) (fun a => cc0_transform_0 i a * S16000x128.size a) (fun a => (Pipeline.Clip.of (cc0_transform_0 i a) (S16000x128.size a) (S100000x128.size a)).extent (S16000x128.size a)) fun a => Pipeline.Clip.inb (Pipeline.Clip.ok_of (hstart0_0 i a))).WholeWords (EltTy.packing .f32)
  hwxs0_0 : ∀ i : grid0.Coords, EltTy.bits .f32 = 32 ∨ (Rect.unit (s := S16000x128) (fun _ => 0) (fun a => (Pipeline.Clip.of (cc0_transform_0 i a) (S16000x128.size a) (S100000x128.size a)).extent (S16000x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16000x128.size a < S100000x128.size a
  hwx0_2 : ∀ i : grid0.Coords, EltTy.bits .f32 = 32 ∨ (Rect.unit (s := S100000x128) (fun a => cc0_transform_2 i a * S16000x128.size a) (fun a => (Pipeline.Clip.of (cc0_transform_2 i a) (S16000x128.size a) (S100000x128.size a)).extent (S16000x128.size a)) fun a => Pipeline.Clip.inb (Pipeline.Clip.ok_of (hstart0_2 i a))).WholeWords (EltTy.packing .f32)
  hwxs0_2 : ∀ i : grid0.Coords, EltTy.bits .f32 = 32 ∨ (Rect.unit (s := S16000x128) (fun _ => 0) (fun a => (Pipeline.Clip.of (cc0_transform_2 i a) (S16000x128.size a) (S100000x128.size a)).extent (S16000x128.size a)) fun a => (Nat.zero_add _).trans_le (Pipeline.Clip.extent_le (Pipeline.Clip.ok_of (hstart0_2 i a)))).WholeWords (EltTy.packing .f32)

variable [Facts₀]

def dot_S16000x128_S128x128_S16000x128_1_1_0_0_n_n : DotDims S16000x128 S128x128 S16000x128 where
  lhsContracting := [1]
  rhsContracting := [1]
  lhsNonContracting := [0]
  rhsNonContracting := [0]
  lhsBatch := []
  rhsBatch := []
  wf := dot_S16000x128_S128x128_S16000x128_1_1_0_0_n_n_wf

abbrev win0_0 : Pipeline.Window sig grid0 :=
  Pipeline.Window.ofSpecClip (Memref.whole main_arg0) S16000x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S16000x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩

abbrev nBuf : Space → Nat
  | .hbm => 4
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S128x128_S128x128_1_0 : S128x128.Transposes [1, 0] S128x128
  dot_S100000x128_S128x128_S100000x128_1_0_0_1_n_n_wf : DotDims.WF S100000x128 S128x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.BlockBodyWords.lean ====
/-
  The kernel body on one pair of blocks.

  The body reads the whole 16000 × 128 buffer of x's window and the whole 128 × 128 buffer of W's window, forms the
  product of the first with the transpose of the second into a zero accumulator, and overwrites the whole
  16000 × 128 buffer of the result's window with it. Nothing else is touched: both input buffers are left as found,
  and what the result's buffer held before does not matter.
-/
import proofs.«148226_g89910845375262_cont_sun_m_1243_21_alg».proof.Proof.Gen.Kernel.Frame
import proofs.«148226_g89910845375262_cont_sun_m_1243_21_alg».proof.Proof.Gen.Kernel.Skeleton
import Idealize.ShloMosaic.Lib.Pipeline.Value

set_option maxRecDepth 16384

noncomputable section

namespace Cert.Kernel.BlockBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen

variable {F : FTy → Type} [FloatOps F]

local notation "𝕄" => MT nD τ sig Unit (Elt F) ℕ (UR sig nD τ) ℕ

/-- The body run on whole staging buffers: x's at `x0`, W's at `x1`, the result's at anything. It ends with the two
    input buffers unchanged and the result's buffer holding the product term `k0_pay1 x0 x1` of the two. -/
theorem sound_kernel (c : Dev nD) (E : Set ℕ) (i : grid0.Coords)
    (arg1 : Memref sig .tc .vmem S16000x128 .f32) (harg1 : arg1.IsWhole)
    (arg2 : Memref sig .tc .vmem S128x128 .f32) (harg2 : arg2.IsWhole)
    (arg3 : Memref sig .tc .vmem S16000x128 .f32) (harg3 : arg3.IsWhole)
    (x0 : Vec F S16000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  -- all three accesses are at offset zero with the buffer's own extents: a load reads the contents, the store
  -- replaces them
  have hz : (![0, 0] : Fin 2 → Nat) = fun _ => 0 := funext fun a => by fin_cases a <;> rfl
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz inb_S16000x128_S16000x128_0_0 y⟩),
    View.canon_unit_zero hz, View.readAt_eq_ld, View.readAt_eq_ld, View.ld_unit_zero (S := S16000x128) hz,
    View.ld_unit_zero (S := S128x128) hz]

end Cert.Kernel.BlockBody

end
-- ==== Proof.WordFrame.lean ====
/-
  The word-level kernel runs to the end and leaves its arguments alone.

  For this claim nothing need be said of what the body computes: at each point it is handed three whole buffers at
  whatever contents, reads two, overwrites the third, and hands all three back at some contents. The two argument
  arrays are only ever fetched from, so they end as they began; the pipeline's own schedule of fetches, waits and
  write-backs is the library's.
-/
import proofs.«148226_g89910845375262_cont_sun_m_1243_21_alg».proof.Proof.BlockBodyWords

set_option maxRecDepth 16384

noncomputable section

namespace Cert.Kernel.WordFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel Cert.Kernel.Gen Cert.Kernel.BlockBody

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data on core `c`: the arrays as launched; of what the body leaves in a staging buffer, nothing is
    asked (the relation that holds of any contents found and left). -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- At every point, from any contents of the three current staging buffers, the body runs without a fault and hands
    the buffers back. -/
theorem body_obligation (c : Dev nD) : (rdats m c).BodyObligation (defs₀ (F := F)) Variants.none () Set.univ := fun t Y _ => by
  rw [bigSep_W0, bigSep_W0]
  rw [show (rdats m c).Φ t.succ = (rdats m c).Φ t.castSucc from rfl,
    show (rdats m c).owesAt () t.succ = (rdats m c).owesAt () t.castSucc from rfl]
  iintro ⟨HΦ, Ho, H0, H1, H2⟩
  iapply (sound_kernel (F := F) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists Y 0; isplitr; · ipureintro; trivial
    iexact H0
  isplitl [H1]
  · iexists Y 1; isplitr; · ipureintro; trivial
    iexact H1
  · iexists k0_pay1 (Y 0) (Y 1); isplitr; · ipureintro; trivial
    iexact H2

set_option backward.isDefEq.respectTransparency.types false in
/-- Every weakly fair execution of @main terminates without a fault; each array ends at contents the write-backs
    allow, which for an array that is only read are its launch contents. -/
theorem run_main : θ_run defs (onTc (τ := τ) (main (F := F))) (s₀ m ρ) (RDat.FramePost cfg0 (rdats m) (V m)) :=
  Pipeline.RDat.θ_run_frame cfgs (0 : Fin 1) launch0 defs₀ Variants.none (rdats m) m ρ main
    (hbody := fun c => body_obligation m c) (hshare := fun c => (rdats m c).share_full fun _ => rfl)
    (howed := fun _ _ => rfl) (V := V m) (hmain := hmain m Variants.none) (hA := fun _ _ => rfl) (hΦ := fun _ _ => rfl)

/-- The frame: the kernel runs to the end without a fault and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨Eq.mp (congrFun ((rdats m c).ArrAt_in 0 rfl cfg0.N) _) ((h c).1 0),
     Eq.mp (congrFun ((rdats m c).ArrAt_in 1 rfl cfg0.N) _) ((h c).1 1)⟩) (run_main m ρ)

end Cert.Kernel.WordFrame

end
-- ==== Proof.BlockBody.lean ====
/-
  The kernel body on one pair of blocks.

  The body reads the whole 16000 × 128 buffer of x's window and the whole 128 × 128 buffer of W's window, forms the
  product of the first with the transpose of the second into a zero accumulator, and overwrites the whole
  16000 × 128 buffer of the result's window with it. Nothing else is touched: both input buffers are left as found,
  and what the result's buffer held before does not matter.
-/
import proofs.«148226_g89910845375262_cont_sun_m_1243_21_alg».proof.Proof.Gen.KernelIdeal.Frame
import proofs.«148226_g89910845375262_cont_sun_m_1243_21_alg».proof.Proof.Gen.KernelIdeal.Skeleton
import Idealize.ShloMosaic.Lib.Pipeline.Value

set_option maxRecDepth 16384

noncomputable section

namespace Cert.KernelIdeal.BlockBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The body run on whole staging buffers: x's at `x0`, W's at `x1`, the result's at anything. It ends with the two
    input buffers unchanged and the result's buffer holding the product term `k0_pay1 x0 x1` of the two. -/
theorem sound_kernel (c : Dev nD) (E : Set ℕ) (i : grid0.Coords)
    (arg1 : Memref sig .tc .vmem S16000x128 .f32) (harg1 : arg1.IsWhole)
    (arg2 : Memref sig .tc .vmem S128x128 .f32) (harg2 : arg2.IsWhole)
    (arg3 : Memref sig .tc .vmem S16000x128 .f32) (harg3 : arg3.IsWhole)
    (x0 : Vec F S16000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  -- all three accesses are at offset zero with the buffer's own extents: a load reads the contents, the store
  -- replaces them
  have hz : (![0, 0] : Fin 2 → Nat) = fun _ => 0 := funext fun a => by fin_cases a <;> rfl
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz inb_S16000x128_S16000x128_0_0 y⟩),
    View.canon_unit_zero hz, View.readAt_eq_ld, View.readAt_eq_ld, View.ld_unit_zero (S := S16000x128) hz,
    View.ld_unit_zero (S := S128x128) hz]

end Cert.KernelIdeal.BlockBody

end
-- ==== Proof.RowProducts.lean ====
/-
  The specification: every row of x against every row of W.

  For x of shape [100000, 128] and W of shape [128, 128] over the extended reals, the result at (r, c) is

      Σ_{k < 128} x (r, k) · W (c, k),

  that is, x · Wᵀ. Nothing here depends on a program: the sum is over `Fin 128` and every index is written by
  its coordinates.
-/
import Idealize.ShloMosaic.Lib.ValueIdx
import Idealize.ShloMosaic.PureOps.Ideal

noncomputable section

namespace Cert.RowProducts

open Idealize.ShloMosaic Idealize.ShloMosaic.ValueIdx
open scoped BigOperators

/-- Row `r` of `x` against row `c` of `W`: the sum of the 128 products. -/
def rowDot (x : (⟨2, ![100000, 128]⟩ : Shape).Idx → EReal) (W : (⟨2, ![128, 128]⟩ : Shape).Idx → EReal)
    (r : Fin 100000) (c : Fin 128) : EReal :=
  ∑ k : Fin 128, x (ix2 r k) * W (ix2 c k)

/-- The whole result array: entry (r, c) is row `r` of `x` against row `c` of `W`. -/
def rowProducts (x : (⟨2, ![100000, 128]⟩ : Shape).Idx → EReal) (W : (⟨2, ![128, 128]⟩ : Shape).Idx → EReal) :
    (⟨2, ![100000, 128]⟩ : Shape).Idx → EReal :=
  fun i => rowDot x W ⟨(i 0).val, idx2_lt0 i⟩ ⟨(i 1).val, idx2_lt1 i⟩

theorem rowProducts_apply (x : (⟨2, ![100000, 128]⟩ : Shape).Idx → EReal) (W : (⟨2, ![128, 128]⟩ : Shape).Idx → EReal)
    (r : Fin 100000) (c : Fin 128) : rowProducts x W (ix2 r c) = rowDot x W r c := rfl

end Cert.RowProducts

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.BlockValue.lean ====
/-
  One block of the result is one block of the row products.

  At grid point t the body multiplies the 16000 × 128 buffer of x's window by the transpose of W. The buffer holds
  rows 16000·t … of x on its leading rows — all 16000 at the first six points, 4000 at the last, where the block
  overhangs the array — and words nothing names below them. Entry (p, q) of the product is
  Σ_k buffer (p, k) · W (q, k): it reads row p of the buffer and no other. So on the leading rows, the ones written
  back, the product is Σ_k x (16000·t + p, k) · W (q, k) whatever the tail of the buffer holds: the block of the
  row-product array at point t.
-/
import proofs.«148226_g89910845375262_cont_sun_m_1243_21_alg».proof.Proof.Gen.KernelIdeal.Frame
import proofs.«148226_g89910845375262_cont_sun_m_1243_21_alg».proof.Proof.Gen.KernelIdeal.Skeleton
import proofs.«148226_g89910845375262_cont_sun_m_1243_21_alg».proof.Proof.RowProducts
import proofs.«148226_g89910845375262_cont_sun_m_1243_21_alg».proof.Proof.LibMatmul2d
import Idealize.ShloMosaic.Lib.Pipeline.Value

set_option maxRecDepth 16384

noncomputable section

namespace Cert.KernelIdeal.BlockValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen Cert.RowProducts Idealize.ShloMosaic.ValueIdx
open scoped BigOperators

/-- The product term at (p, q) of the buffer: row p of the first block against row q of the second. -/
theorem pay_apply (X0 : Vec Ideal S16000x128 .f32) (X1 : Vec Ideal S128x128 .f32) (p : Fin 16000) (q : Fin 128) :
    k0_pay1 (F := Ideal) X0 X1 (ix2 p q) = ∑ k : Fin 128, X0 (ix2 p k) * X1 (ix2 q k) := by
  unfold k0_pay1
  exact Cert.LibMatmul2d.matmul_transposedRhs_apply (M := 16000) (K := 128) (N := 128) X0 X1 p q

/-- Where the windows' blocks sit, decided once over the seven points. -/
theorem index_facts : ∀ t : Fin cfg0.N,
    win0_0.index t 0 = t.val ∧ win0_0.index t 1 = 0 ∧ win0_1.index t 0 = 0 ∧ win0_1.index t 1 = 0
    ∧ win0_2.index t 0 = t.val ∧ win0_2.index t 1 = 0
    ∧ win0_0.xsize (grid0.coords t) 0 = win0_2.xsize (grid0.coords t) 0
    ∧ win0_0.xsize (grid0.coords t) 1 = 128 ∧ win0_2.xsize (grid0.coords t) 1 = 128 :=
  (by decide +kernel : ∀ t : Fin grid0.N, _)

/-- The part of the body's product that is written back at point `t` — its leading rows — is the block at `t` of
    the row-product array of the two argument arrays, whatever (`d0`) the fetch left in the rows of x's buffer that
    lie past the array's end. -/
theorem block_product (t : Fin cfg0.N) (d0 : S16000x128.Idx → EReal)
    (xa : (⟨S100000x128, .f32⟩ : BufTy).Contents (Elt Ideal)) (Wa : (⟨S128x128, .f32⟩ : BufTy).Contents (Elt Ideal)) :
    win0_2.cut (grid0.coords t) (k0_pay1 (F := Ideal) (win0_0.fill (grid0.coords t) d0 ((win0_0.blk t).view.read (Elt Ideal) xa)) ((win0_1.blk t).view.read (Elt Ideal) Wa))
      = (win0_2.blk t).view.read (Elt Ideal) (rowProducts xa Wa) := by
  funext j
  obtain ⟨h00, h01, h10, h11, h20, h21, hx0, hx1, hx2⟩ := index_facts t
  have hp : (j 0).val < 16000 := lt_of_lt_of_le (j 0).isLt (win0_2.xsize_le (grid0.coords t) 0)
  have hq : (j 1).val < 128 := lt_of_lt_of_le (j 1).isLt (win0_2.xsize_le (grid0.coords t) 1)
  show k0_pay1 (F := Ideal) _ _ (win0_2.xinj (grid0.coords t) j) = rowProducts xa Wa ((win0_2.blk t).view.emb j)
  rw [show win0_2.xinj (grid0.coords t) j = ix2 (⟨(j 0).val, hp⟩ : Fin 16000) (⟨(j 1).val, hq⟩ : Fin 128) from
    funext fun a => Fin.ext (by match a with | ⟨0, _⟩ => rfl | ⟨1, _⟩ => rfl), pay_apply]
  unfold rowProducts rowDot
  refine Finset.sum_congr rfl fun k _ => ?_
  congr 1
  · have hm : win0_0.moved (grid0.coords t) (ix2 (⟨(j 0).val, hp⟩ : Fin 16000) k) = true :=
      (win0_0.moved_iff _ _).mpr fun a => by
        match a with
        | ⟨0, _⟩ => show (j 0).val < win0_0.xsize (grid0.coords t) 0; rw [hx0]; exact (j 0).isLt
        | ⟨1, _⟩ => show k.val < win0_0.xsize (grid0.coords t) 1; rw [hx1]; exact k.isLt
    unfold Window.fill; rw [dif_pos hm]
    show xa ((win0_0.blk t).view.emb _) = xa _
    refine congrArg xa (funext fun a => Fin.ext ?_)
    match a with
    | ⟨0, _⟩ => show win0_0.index t 0 * 16000 + 1 * (j 0).val = win0_2.index t 0 * 16000 + 1 * (j 0).val; rw [h00, h20]
    | ⟨1, _⟩ => show win0_0.index t 1 * 128 + 1 * k.val = k.val; rw [h01]; omega
  · show Wa ((win0_1.blk t).view.emb _) = Wa _
    refine congrArg Wa (funext fun a => Fin.ext ?_)
    match a with
    | ⟨0, _⟩ => show win0_1.index t 0 * 128 + 1 * (j 1).val = win0_2.index t 1 * 128 + 1 * (j 1).val; rw [h10, h21]
    | ⟨1, _⟩ => show win0_1.index t 1 * 128 + 1 * k.val = k.val; rw [h11]; omega

end Cert.KernelIdeal.BlockValue

end
-- ==== Proof.ResultArray.lean ====
/-
  The idealized kernel's run, and the array it leaves.

  Seven grid points, each multiplying one block of 16000 rows of x by Wᵀ; the seventh block has only 4000 rows
  inside the array. What each point writes back is its block of the row-product array (the rows of the buffers past
  the array's end are never written back), and the seven blocks' rows 0 … 15999, 16000 … 31999, …, 96000 … 99999
  together are all 100000 rows. So the result array ends holding Σ_k x (r, k) · W (c, k) at every (r, c), and the
  two argument arrays, which are only read, end as they began.
-/
import proofs.«148226_g89910845375262_cont_sun_m_1243_21_alg».proof.Proof.BlockBody
import proofs.«148226_g89910845375262_cont_sun_m_1243_21_alg».proof.Proof.BlockValue

set_option maxRecDepth 16384

noncomputable section

namespace Cert.KernelIdeal.ResultArray

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal Cert.KernelIdeal.Gen Cert.KernelIdeal.BlockBody Cert.KernelIdeal.BlockValue Cert.RowProducts Idealize.ShloMosaic.ValueIdx
open scoped BigOperators

local notation "𝕄" => MT nD τ sig Unit (Elt Ideal) ℕ (UR sig nD τ) ℕ

variable (m : (ℓ : Loc nD τ sig) → Buf (Elt Ideal) ℓ) (ρ : Dev nD → PrngReg)

/-- The row products of the two argument arrays as launched: what the result array is shown to end at. -/
def result (c : Dev nD) : (⟨S100000x128, .f32⟩ : BufTy).Contents (Elt Ideal) :=
  rowProducts (V m c main_arg0) (V m c main_arg1)

/-- What the body's product leaves on the rows written back at point `t`: the block of `result` there, whatever the
    fetch left past the array's end in x's buffer. -/
theorem product_at (c : Dev nD) (t : Fin cfg0.N) (d0 : S16000x128.Idx → EReal) :
    win0_2.cut (grid0.coords t) (k0_pay1 (F := Ideal) (win0_0.fill (grid0.coords t) d0 (iblk m c 0 t)) (iblk m c 1 t))
      = (win0_2.blk t).view.read (Elt Ideal) (result m c) :=
  block_product t d0 _ _

/-! ## The proof data -/

/-- On core `c`: the arrays as launched; after the body at point `t`, x's buffer holds its block on the rows inside
    the array, W's buffer holds W, and the result's buffer holds the block of `result` on the rows inside the array.
    Past the array's end nothing is stated of either 16000-row buffer (the filler is the zero word, which nothing
    reads). -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) ((win0_2.blk t).view.read (Elt Ideal) (result m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => (0 : EReal)) (iblk m c 0 t) := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = win0_2.fill (grid0.coords t) (fun _ => (0 : EReal)) ((win0_2.blk t).view.read (Elt Ideal) (result m c)) := by
  dsimp only [dats]

/-- x's buffer is fetched at every point: the body finds the block on the rows inside the array and anything (`d`)
    below them. -/
theorem before_0 (c : Dev nD) (t : Fin cfg0.N) (d) :
    (dats m 0 c).before 0 t d = win0_0.fill (grid0.coords t) d (iblk m c 0 t) := by
  unfold Dat.before; rw [if_pos (fetch0_0 t)]; rfl

/-- W's buffer is fetched once and left in place: the body finds W at every point. -/
theorem before_1 (c : Dev nD) (t : Fin cfg0.N) (d) : (dats m 0 c).before 1 t d = iblk m c 1 t :=
  before0_1_of m (dats m 0 c) (A_eq m c 1) (after_1 m c) t d

/-- The result's buffer is written back at every point: the body finds anything in it. -/
theorem before_2 (c : Dev nD) (t : Fin cfg0.N) (d) : (dats m 0 c).before 2 t d = d :=
  (dats m 0 c).before_out_reset 2 rfl t
    (by by_cases h : t.val = 0
        · exact .inl h
        · exact .inr ⟨h, flush0_2 _⟩) d

/-! ## The body obligation -/

theorem body_obligation (c : Dev nD) : BodyObligationLoose (dats m 0 c) (defs₀ (F := Ideal)) Variants.none () Set.univ := fun t => by
  rw [bigSep_W0, bigSep_W0]
  -- no window is forgotten or idle; x's and the result's windows are stated on the rows inside the array only
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := Ideal) c Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))
    (win0_0.fill (grid0.coords t) d0 (iblk m c 0 t)) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  have h0 : win0_0.fill (grid0.coords t) d0 (win0_0.cut (grid0.coords t) ((dats m 0 c).after 0 t))
      = win0_0.fill (grid0.coords t) d0 (iblk m c 0 t) := by rw [after_0, Window.cut_fill]
  have h2 : win0_2.fill (grid0.coords t) (k0_pay1 (F := Ideal) (win0_0.fill (grid0.coords t) d0 (iblk m c 0 t)) (iblk m c 1 t))
        (win0_2.cut (grid0.coords t) ((dats m 0 c).after 2 t))
      = k0_pay1 (F := Ideal) (win0_0.fill (grid0.coords t) d0 (iblk m c 0 t)) (iblk m c 1 t) := by
    rw [after_2, Window.cut_fill, ← product_at m c t d0, Window.fill_cut]
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [h0]; try iexact H0
  isplitl [H1]
  · rw [after_1]; iexact H1
  · iexists k0_pay1 (F := Ideal) (win0_0.fill (grid0.coords t) d0 (iblk m c 0 t)) (iblk m c 1 t)
    change _ ⊢ owns (c : Thread nD τ) (stage0_2 (cfg0.slots t 2)) fullShare
      (win0_2.fill (grid0.coords t) (k0_pay1 (F := Ideal) (win0_0.fill (grid0.coords t) d0 (iblk m c 0 t)) (iblk m c 1 t))
        (win0_2.cut (grid0.coords t) ((dats m 0 c).after 2 t)))
    rw [h2]; try iexact H2

/-! ## The run -/

set_option backward.isDefEq.respectTransparency.types false in
/-- Every weakly fair execution of @main terminates, and every array of the pipeline ends at what the write-backs
    make of the proof data. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-! ## The result array after the run -/

/-- Where the result's blocks sit and how many rows of each lie inside the array, decided over the seven points. -/
theorem out_blocks : ∀ t : Fin cfg0.N,
    win0_2.index t 0 = t.val ∧ win0_2.xsize (grid0.coords t) 0 = (if t.val < 6 then 16000 else 4000)
    ∧ win0_2.index t 1 = 0 ∧ win0_2.xsize (grid0.coords t) 1 = 128 :=
  (by decide +kernel : ∀ t : Fin grid0.N, _)

/-- An index of the result array lies in the block of point `t` iff its row is among the block's rows inside the
    array (a block spans all 128 columns). -/
theorem mem_block (t : Fin cfg0.N) (i : S100000x128.Idx) :
    i ∈ (win0_2.blk t).view.set ↔
      win0_2.index t 0 * 16000 ≤ (i 0).val ∧ (i 0).val < win0_2.index t 0 * 16000 + win0_2.xsize (grid0.coords t) 0 := by
  show i ∈ ((View.whole main_v0).slice (win0_2.rect t)).set ↔ _
  rw [View.set_slice_whole, Rect.mem_set_unit]
  obtain ⟨e0, x0, e1, x1⟩ := out_blocks t
  refine ⟨fun h => h 0, fun h a => ?_⟩
  match a with
  | ⟨0, _⟩ => exact h
  | ⟨1, _⟩ =>
    show win0_2.index t 1 * 128 ≤ (i 1).val ∧ (i 1).val < win0_2.index t 1 * 128 + win0_2.xsize (grid0.coords t) 1
    rw [e1, x1]; have := idx2_lt1 i; omega

/-- Row r lies in the block of point r / 16000. -/
theorem rows_covered (i : S100000x128.Idx) :
    ∃ t : Fin cfg0.N, (cfg0.win 2).flush t = true ∧ i ∈ ((cfg0.win 2).blk t).view.set := by
  have hr : (i 0).val < 100000 := idx2_lt0 i
  have hN : (i 0).val / 16000 < cfg0.N := by rw [show cfg0.N = 7 from N_0]; omega
  refine ⟨⟨(i 0).val / 16000, hN⟩, flush0_2 _, ?_⟩
  obtain ⟨e0, x0, e1, x1⟩ := out_blocks ⟨(i 0).val / 16000, hN⟩
  show i ∈ (win0_2.blk ⟨(i 0).val / 16000, hN⟩).view.set
  rw [mem_block, e0, x0]
  dsimp only
  split <;> omega

/-- The result array ends holding the row products. -/
theorem final_result (c : Dev nD) : (dats m 0 c).arrAt 2 cfg0.N = result m c :=
  (dats m 0 c).arrAt_eq_of_cover 2 (result m c)
    (fun t _ => by
      show win0_2.cut (grid0.coords t) ((dats m 0 c).after 2 t) = _
      rw [after_2]; exact win0_2.cut_fill _ _ _)
    (rows_covered)

/-- The idealized kernel runs to the end without a fault, with the result array at the row products of the two
    argument arrays and those unchanged. -/
theorem run_value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (final_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

/-- The frame: it runs to the end without a fault and the argument arrays end unchanged. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.ResultArray

end
-- ==== Proof.ReferenceRows.lean ====
/-
  The reference computes the row products.

  The reference transposes W and contracts x's columns with the transpose's rows: at (r, c) that is
  Σ_k x (r, k) · Wᵀ (k, c) = Σ_k x (r, k) · W (c, k), the row product of the specification, term by term.
-/
import proofs.«148226_g89910845375262_cont_sun_m_1243_21_alg».proof.Proof.Gen.ReferenceIdeal.Run
import proofs.«148226_g89910845375262_cont_sun_m_1243_21_alg».proof.Proof.Gen.ReferenceIdeal.Read
import proofs.«148226_g89910845375262_cont_sun_m_1243_21_alg».proof.Proof.RowProducts

noncomputable section

namespace Cert.ReferenceIdeal.RefValue

open Cert.ReferenceIdeal Cert.ReferenceIdeal.Gen Cert.ReferenceIdeal.Read
open Idealize.ShloMosaic Idealize.ShloMosaic.ValueIdx Cert.RowProducts
open scoped BigOperators

/-- The left factor of the reference's k-th product at output index `i` sits at (row of `i`, k). -/
theorem lidx_eq (i : S100000x128.Idx) (k : Fin 128) :
    lidx_main_v1 i k = ix2 (⟨(i 0).val, idx2_lt0 i⟩ : Fin 100000) k :=
  funext fun a => Fin.ext (by match a with | ⟨0, _⟩ => rfl | ⟨1, _⟩ => rfl)

/-- The right factor, read through the transposition, sits at (column of `i`, k) of W. -/
theorem ridx_eq (i : S100000x128.Idx) (k : Fin 128) :
    idx_main_v0 (ridx_main_v1 i k) = ix2 (⟨(i 1).val, idx2_lt1 i⟩ : Fin 128) k :=
  funext fun a => Fin.ext (by match a with | ⟨0, _⟩ => rfl | ⟨1, _⟩ => rfl)

/-- The reference's result, as a function of its two arguments, is the array of row products. -/
theorem reference_eq (x : (⟨S100000x128, .f32⟩ : BufTy).Contents (Elt Ideal)) (W : (⟨S128x128, .f32⟩ : BufTy).Contents (Elt Ideal)) :
    val_main_v1 (F := Ideal) x W = rowProducts x W := by
  funext i
  rw [val_main_v1_apply]
  unfold rowProducts rowDot
  refine Finset.sum_congr rfl fun k _ => ?_
  rw [val_main_v0_apply, lidx_eq, ridx_eq]

end Cert.ReferenceIdeal.RefValue

end
-- ==== Proof.lean ====
/-
  x · Wᵀ in seven blocks of rows, against one whole product.

  The kernel streams x (100000 × 128) through the matrix unit in blocks of 16000 rows — six whole blocks and a last
  one of 4000 rows that overhangs the array — each multiplied by the transpose of W (128 × 128) into a zero
  accumulator, the operands narrowed to bf16 first. The reference transposes W and contracts x's columns with the
  transpose's rows in one product. Over the extended reals narrowing is the identity and either product is, at
  (r, c), the sum Σ_k x (r, k) · W (c, k): the same 128 terms in the same order on both sides, so no law of
  arithmetic beyond 0 + s = s is used and finiteness of the inputs is never needed.

  Entry (r, c) of a block's product reads row r of the block only, so what the last point computes from the rows of
  its buffer that lie past the array's end never reaches the rows it writes back; the seven blocks' rows together are
  all the rows of the result.

  The idealization rewrote nothing, so `preserves` is trivial. The three frames: the word-level kernel's from a run
  that does not name what the body computes, the idealized kernel's from the run that does, the reference's from its
  run with the result dropped.
-/
import proofs.«148226_g89910845375262_cont_sun_m_1243_21_alg».proof.Defs
import proofs.«148226_g89910845375262_cont_sun_m_1243_21_alg».proof.Proof.Gen.Kernel
import proofs.«148226_g89910845375262_cont_sun_m_1243_21_alg».proof.Proof.Gen.KernelIdeal
import proofs.«148226_g89910845375262_cont_sun_m_1243_21_alg».proof.Proof.Gen.ReferenceIdeal
import proofs.«148226_g89910845375262_cont_sun_m_1243_21_alg».proof.Proof.Gen.Pre_finite_inputs
import proofs.«148226_g89910845375262_cont_sun_m_1243_21_alg».proof.Proof.WordFrame
import proofs.«148226_g89910845375262_cont_sun_m_1243_21_alg».proof.Proof.ResultArray
import proofs.«148226_g89910845375262_cont_sun_m_1243_21_alg».proof.Proof.ReferenceRows

noncomputable section

namespace Cert.Proof

open Idealize.ShloMosaic Idealize.ShloMosaic.TcCoe Idealize.SL.Sem

/-- The word-level kernel runs to the end without a fault and leaves x and W unchanged. -/
theorem frame_kernel : Cert.frame_Kernel := fun m ρ _ => Cert.Kernel.WordFrame.frame (F := Bits) m ρ

/-- So does the idealized kernel. -/
theorem frame_kernelIdeal : Cert.frame_KernelIdeal := fun m ρ _ => Cert.KernelIdeal.ResultArray.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and W both idealized programs end with the result at the row products
    Σ_k x (r, k) · W (c, k) of the arguments, and the arguments unchanged. -/
theorem algebraic : Cert.algebraic_KernelIdeal_ReferenceIdeal := by
  intro m ρ m' ρ' _ hagree
  refine ⟨fun c => Cert.KernelIdeal.ResultArray.result m c, Cert.KernelIdeal.ResultArray.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefValue.reference_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
